-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x207x64 : Shape := ⟨3, ![16, 207, 64]⟩
abbrev S16x207x1x64 : Shape := ⟨4, ![16, 207, 1, 64]⟩
abbrev S16x207x64x192 : Shape := ⟨4, ![16, 207, 64, 192]⟩
abbrev S16x207x1x192 : Shape := ⟨4, ![16, 207, 1, 192]⟩
abbrev S_ : Shape := ⟨0, ![]⟩

class Facts : Prop where
  bcast_S_S16x207x64 : S_.BroadcastsInDim S16x207x64 (![] : Fin 0 → Fin S16x207x64.rank)
  reducesTo_S16x207x64_S_d0_1_2 : S16x207x64.ReducesTo [0, 1, 2] S_
  h_S_ : 0 < S_.numel
  bcast_S_S16x207x1x64 : S_.BroadcastsInDim S16x207x1x64 (![] : Fin 0 → Fin S16x207x1x64.rank)
  reducesTo_S16x207x1x64_S_d0_1_2_3 : S16x207x1x64.ReducesTo [0, 1, 2, 3] S_
  bcast_S_S16x207x64x192 : S_.BroadcastsInDim S16x207x64x192 (![] : Fin 0 → Fin S16x207x64x192.rank)
  reducesTo_S16x207x64x192_S_d0_1_2_3 : S16x207x64x192.ReducesTo [0, 1, 2, 3] S_
  bcast_S_S16x207x1x192 : S_.BroadcastsInDim S16x207x1x192 (![] : Fin 0 → Fin S16x207x1x192.rank)
  reducesTo_S16x207x1x192_S_d0_1_2_3 : S16x207x1x192.ReducesTo [0, 1, 2, 3] S_

variable [Facts]

def fn_part1 {F : FTy → Type} [FloatOps F] (main_arg4 : FVec F S16x207x1x192 .f32) (main_v13 : IVec S_ 1) (main_v16 : IVec S16x207x64x192 1) : IVec S_ 1 :=
  let main_c_5 : IVec S_ 1 := constantI S_ 1 1#1
  let main_v17 : IVec S_ 1 := (fun x v => Host.reduce IntOp.andi x v reducesTo_S16x207x64x192_S_d0_1_2_3 h_S_) main_v16 main_c_5
  let main_v18 : IVec S_ 1 := andi main_v13 main_v17
  let main_v19 : FVec F S16x207x1x192 .f32 := Host.absf main_arg4
  let main_cst_6 : FVec F S_ .f32 := constant S_ .f32 0x7F800000#32
  let main_v20 : FVec F S16x207x1x192 .f32 := broadcastInDim S16x207x1x192 ![] bcast_S_S16x207x1x192 main_cst_6
  let main_v21 : IVec S16x207x1x192 1 := cmpf .olt main_v19 main_v20
  let main_c_7 : IVec S_ 1 := constantI S_ 1 1#1
  let main_v22 : IVec S_ 1 := (fun x v => Host.reduce IntOp.andi x v reducesTo_S16x207x1x192_S_d0_1_2_3 h_S_) main_v21 main_c_7
  let main_v23 : IVec S_ 1 := andi main_v18 main_v22
  main_v23

def fn {F : FTy → Type} [FloatOps F] (main_arg0 : FVec F S16x207x64 .f32) (main_arg1 : FVec F S16x207x1x64 .f32) (main_arg2 : FVec F S16x207x64x192 .f32) (main_arg3 : FVec F S16x207x64x192 .f32) (main_arg4 : FVec F S16x207x1x192 .f32) : IVec S_ 1 :=
  let main_v0 : FVec F S16x207x64 .f32 := Host.absf main_arg0
  let main_cst : FVec F S_ .f32 := constant S_ .f32 0x7F800000#32
  let main_v1 : FVec F S16x207x64 .f32 := broadcastInDim S16x207x64 ![] bcast_S_S16x207x64 main_cst
  let main_v2 : IVec S16x207x64 1 := cmpf .olt main_v0 main_v1
  let main_c : IVec S_ 1 := constantI S_ 1 1#1
  let main_v3 : IVec S_ 1 := (fun x v => Host.reduce IntOp.andi x v reducesTo_S16x207x64_S_d0_1_2 h_S_) main_v2 main_c
  let main_v4 : FVec F S16x207x1x64 .f32 := Host.absf main_arg1
  let main_cst_0 : FVec F S_ .f32 := constant S_ .f32 0x7F800000#32
  let main_v5 : FVec F S16x207x1x64 .f32 := broadcastInDim S16x207x1x64 ![] bcast_S_S16x207x1x64 main_cst_0
  let main_v6 : IVec S16x207x1x64 1 := cmpf .olt main_v4 main_v5
  let main_c_1 : IVec S_ 1 := constantI S_ 1 1#1
  let main_v7 : IVec S_ 1 := (fun x v => Host.reduce IntOp.andi x v reducesTo_S16x207x1x64_S_d0_1_2_3 h_S_) main_v6 main_c_1
  let main_v8 : IVec S_ 1 := andi main_v3 main_v7
  let main_v9 : FVec F S16x207x64x192 .f32 := Host.absf main_arg2
  let main_cst_2 : FVec F S_ .f32 := constant S_ .f32 0x7F800000#32
  let main_v10 : FVec F S16x207x64x192 .f32 := broadcastInDim S16x207x64x192 ![] bcast_S_S16x207x64x192 main_cst_2
  let main_v11 : IVec S16x207x64x192 1 := cmpf .olt main_v9 main_v10
  let main_c_3 : IVec S_ 1 := constantI S_ 1 1#1
  let main_v12 : IVec S_ 1 := (fun x v => Host.reduce IntOp.andi x v reducesTo_S16x207x64x192_S_d0_1_2_3 h_S_) main_v11 main_c_3
  let main_v13 : IVec S_ 1 := andi main_v8 main_v12
  let main_v14 : FVec F S16x207x64x192 .f32 := Host.absf main_arg3
  let main_cst_4 : FVec F S_ .f32 := constant S_ .f32 0x7F800000#32
  let main_v15 : FVec F S16x207x64x192 .f32 := broadcastInDim S16x207x64x192 ![] bcast_S_S16x207x64x192 main_cst_4
  let main_v16 : IVec S16x207x64x192 1 := cmpf .olt main_v14 main_v15
  fn_part1 (F := F) main_arg4 main_v13 main_v16
-- ==== Kernel.lean ====
abbrev S16x207x64 : Shape := ⟨3, ![16, 207, 64]⟩
abbrev S16x207x1x64 : Shape := ⟨4, ![16, 207, 1, 64]⟩
abbrev S16x207x64x192 : Shape := ⟨4, ![16, 207, 64, 192]⟩
abbrev S16x207x1x192 : Shape := ⟨4, ![16, 207, 1, 192]⟩
abbrev S3312x1x64 : Shape := ⟨3, ![3312, 1, 64]⟩
abbrev S3312x64x192 : Shape := ⟨3, ![3312, 64, 192]⟩
abbrev S3312x1x192 : Shape := ⟨3, ![3312, 1, 192]⟩
abbrev S69x1x64 : Shape := ⟨3, ![69, 1, 64]⟩
abbrev S69x64x192 : Shape := ⟨3, ![69, 64, 192]⟩
abbrev S69x1x192 : Shape := ⟨3, ![69, 1, 192]⟩
abbrev S69x64 : Shape := ⟨2, ![69, 64]⟩
abbrev S69x64x1 : Shape := ⟨3, ![69, 64, 1]⟩
abbrev S69x192 : Shape := ⟨2, ![69, 192]⟩
abbrev S69x64x64 : Shape := ⟨3, ![69, 64, 64]⟩

abbrev nBuf : Space → Nat
  | .hbm => 12
  | .vmem => 12
  | .smem => 0
  | _ => 0

abbrev bufTy : (tb : Table) → Fin (tcTables nBuf tb) → BufTy
  | .hbm, ⟨0, _⟩ => ⟨S16x207x64, .f32⟩
  | .hbm, ⟨1, _⟩ => ⟨S16x207x1x64, .f32⟩
  | .hbm, ⟨2, _⟩ => ⟨S16x207x64x192, .f32⟩
  | .hbm, ⟨3, _⟩ => ⟨S16x207x64x192, .f32⟩
  | .hbm, ⟨4, _⟩ => ⟨S16x207x1x192, .f32⟩
  | .hbm, ⟨5, _⟩ => ⟨S3312x1x64, .f32⟩
  | .hbm, ⟨6, _⟩ => ⟨S3312x1x64, .f32⟩
  | .hbm, ⟨7, _⟩ => ⟨S3312x64x192, .f32⟩
  | .hbm, ⟨8, _⟩ => ⟨S3312x64x192, .f32⟩
  | .hbm, ⟨9, _⟩ => ⟨S3312x1x192, .f32⟩
  | .hbm, ⟨10, _⟩ => ⟨S3312x1x64, .f32⟩
  | .hbm, ⟨11, _⟩ => ⟨S16x207x1x64, .f32⟩
  | .local _ .vmem, ⟨0, _⟩ => ⟨S69x1x64, .f32⟩
  | .local _ .vmem, ⟨1, _⟩ => ⟨S69x1x64, .f32⟩
  | .local _ .vmem, ⟨2, _⟩ => ⟨S69x1x64, .f32⟩
  | .local _ .vmem, ⟨3, _⟩ => ⟨S69x1x64, .f32⟩
  | .local _ .vmem, ⟨4, _⟩ => ⟨S69x64x192, .f32⟩
  | .local _ .vmem, ⟨5, _⟩ => ⟨S69x64x192, .f32⟩
  | .local _ .vmem, ⟨6, _⟩ => ⟨S69x64x192, .f32⟩
  | .local _ .vmem, ⟨7, _⟩ => ⟨S69x64x192, .f32⟩
  | .local _ .vmem, ⟨8, _⟩ => ⟨S69x1x192, .f32⟩
  | .local _ .vmem, ⟨9, _⟩ => ⟨S69x1x192, .f32⟩
  | .local _ .vmem, ⟨10, _⟩ => ⟨S69x1x64, .f32⟩
  | .local _ .vmem, ⟨11, _⟩ => ⟨S69x1x64, .f32⟩
  | _, _ => ⟨S16x207x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S69x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S69x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S69x64x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S69x64x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S69x1x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S69x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x207x64_S3312x1x64 : S16x207x64.ShapeCasts S3312x1x64
  shapeCasts_S16x207x1x64_S3312x1x64 : S16x207x1x64.ShapeCasts S3312x1x64
  shapeCasts_S16x207x64x192_S3312x64x192 : S16x207x64x192.ShapeCasts S3312x64x192
  shapeCasts_S16x207x1x192_S3312x1x192 : S16x207x1x192.ShapeCasts S3312x1x192
  inb_S69x1x64_S69x1x64_0_0_0 : ∀ a, (![0, 0, 0] : Fin 3 → Nat) a + S69x1x64.size a ≤ S69x1x64.size a
  h_S69x1x64 : 0 < S69x1x64.numel
  shapeCasts_S69x1x64_S69x1x64 : S69x1x64.ShapeCasts S69x1x64
  inb_S69x64x192_S69x64x192_0_0_0 : ∀ a, (![0, 0, 0] : Fin 3 → Nat) a + S69x64x192.size a ≤ S69x64x192.size a
  h_S69x64x192 : 0 < S69x64x192.numel
  shapeCasts_S69x64x192_S69x64x192 : S69x64x192.ShapeCasts S69x64x192
  inb_S69x1x192_S69x1x192_0_0_0 : ∀ a, (![0, 0, 0] : Fin 3 → Nat) a + S69x1x192.size a ≤ S69x1x192.size a
  h_S69x1x192 : 0 < S69x1x192.numel
  shapeCasts_S69x1x192_S69x1x192 : S69x1x192.ShapeCasts S69x1x192
  shapeCasts_S69x1x64_S69x64 : S69x1x64.ShapeCasts S69x64
  shapeCasts_S69x64_S69x64x1 : S69x64.ShapeCasts S69x64x1
  broadcasts_S69x64x1_S69x64x192 : S69x64x1.Broadcasts S69x64x192
  reduces_S69x64x192_S69x192 : S69x64x192.Reduces [1] S69x192
  shapeCasts_S69x192_S69x1x192 : S69x192.ShapeCasts S69x1x192
  slices_S69x1x192_o0_0_0_S69x1x64 : S69x1x192.Slices ![0, 0, 0] S69x1x64
  slices_S69x1x192_o0_0_64_S69x1x64 : S69x1x192.Slices ![0, 0, 64] S69x1x64
  slices_S69x1x192_o0_0_128_S69x1x64 : S69x1x192.Slices ![0, 0, 128] S69x1x64
  slices_S69x64x192_o0_0_0_S69x64x64 : S69x64x192.Slices ![0, 0, 0] S69x64x64
  slices_S69x64x192_o0_0_64_S69x64x64 : S69x64x192.Slices ![0, 0, 64] S69x64x64
  slices_S69x64x192_o0_0_128_S69x64x64 : S69x64x192.Slices ![0, 0, 128] S69x64x64
  broadcasts_S69x64x1_S69x64x64 : S69x64x1.Broadcasts S69x64x64
  reduces_S69x64x64_S69x64 : S69x64x64.Reduces [1] S69x64
  shapeCasts_S69x64_S69x1x64 : S69x64.ShapeCasts S69x1x64
  shapeCasts_S3312x1x64_S16x207x1x64 : S3312x1x64.ShapeCasts S16x207x1x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S69x1x64.size a ≤ S3312x1x64.size a
  hwx0_0 : ∀ i : grid0.Coords, EltTy.bits .f32 = 32 ∨ (Rect.block (s := S3312x1x64) S69x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S69x1x64.size a ≤ S3312x1x64.size a
  hwx0_1 : ∀ i : grid0.Coords, EltTy.bits .f32 = 32 ∨ (Rect.block (s := S3312x1x64) S69x1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S69x64x192.size a ≤ S3312x64x192.size a
  hwx0_2 : ∀ i : grid0.Coords, EltTy.bits .f32 = 32 ∨ (Rect.block (s := S3312x64x192) S69x64x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S69x64x192.size a ≤ S3312x64x192.size a
  hwx0_3 : ∀ i : grid0.Coords, EltTy.bits .f32 = 32 ∨ (Rect.block (s := S3312x64x192) S69x64x192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S69x1x192.size a ≤ S3312x1x192.size a
  hwx0_4 : ∀ i : grid0.Coords, EltTy.bits .f32 = 32 ∨ (Rect.block (s := S3312x1x192) S69x1x192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S69x1x64.size a ≤ S3312x1x64.size a
  hwx0_5 : ∀ i : grid0.Coords, EltTy.bits .f32 = 32 ∨ (Rect.block (s := S3312x1x64) S69x1x64.size (cc0_transform_5 i) (hinb0_5 i)).WholeWords (EltTy.packing .f32)

variable [Facts₀]

abbrev win0_0 : Pipeline.Window sig grid0 :=
  Pipeline.Window.ofSpec (Memref.whole main_v0) S69x1x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S69x1x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S69x64x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S69x64x192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S69x1x192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S69x1x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x207x64 : Shape := ⟨3, ![16, 207, 64]⟩
abbrev S16x207x1x64 : Shape := ⟨4, ![16, 207, 1, 64]⟩
abbrev S16x207x64x192 : Shape := ⟨4, ![16, 207, 64, 192]⟩
abbrev S16x207x1x192 : Shape := ⟨4, ![16, 207, 1, 192]⟩
abbrev S16x207x64x64 : Shape := ⟨4, ![16, 207, 64, 64]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S16x207x64, .f32⟩
  | .hbm, ⟨1, _⟩ => ⟨S16x207x1x64, .f32⟩
  | .hbm, ⟨2, _⟩ => ⟨S16x207x64x192, .f32⟩
  | .hbm, ⟨3, _⟩ => ⟨S16x207x64x192, .f32⟩
  | .hbm, ⟨4, _⟩ => ⟨S16x207x1x192, .f32⟩
  | .hbm, ⟨5, _⟩ => ⟨S16x207x1x64, .f32⟩
  | .hbm, ⟨6, _⟩ => ⟨S16x207x1x192, .f32⟩
  | .hbm, ⟨7, _⟩ => ⟨S16x207x1x64, .f32⟩
  | .hbm, ⟨8, _⟩ => ⟨S16x207x1x64, .f32⟩
  | .hbm, ⟨9, _⟩ => ⟨S16x207x1x64, .f32⟩
  | .hbm, ⟨10, _⟩ => ⟨S16x207x64x64, .f32⟩
  | .hbm, ⟨11, _⟩ => ⟨S16x207x64x64, .f32⟩
  | .hbm, ⟨12, _⟩ => ⟨S16x207x64x64, .f32⟩
  | .hbm, ⟨13, _⟩ => ⟨S16x207x1x64, .f32⟩
  | .hbm, ⟨14, _⟩ => ⟨S16x207x1x64, .f32⟩
  | .hbm, ⟨15, _⟩ => ⟨S16x207x1x64, .f32⟩
  | .hbm, ⟨16, _⟩ => ⟨S16x207x1x64, .f32⟩
  | .hbm, ⟨17, _⟩ => ⟨S16x207x1x64, .f32⟩
  | .hbm, ⟨18, _⟩ => ⟨S16x207x1x64, .f32⟩
  | .hbm, ⟨19, _⟩ => ⟨S16x207x1x64, .f32⟩
  | .hbm, ⟨20, _⟩ => ⟨S16x207x1x64, .f32⟩
  | .hbm, ⟨21, _⟩ => ⟨S_, .f32⟩
  | .hbm, ⟨22, _⟩ => ⟨S16x207x1x64, .f32⟩
  | .hbm, ⟨23, _⟩ => ⟨S16x207x1x64, .f32⟩
  | .hbm, ⟨24, _⟩ => ⟨S_, .f32⟩
  | .hbm, ⟨25, _⟩ => ⟨S16x207x1x64, .f32⟩
  | .hbm, ⟨26, _⟩ => ⟨S16x207x1x64, .f32⟩
  | .hbm, ⟨27, _⟩ => ⟨S16x207x1x64, .f32⟩
  | .hbm, ⟨28, _⟩ => ⟨S16x207x1x64, .f32⟩
  | .hbm, ⟨29, _⟩ => ⟨S16x207x1x64, .f32⟩
  | .hbm, ⟨30, _⟩ => ⟨S16x207x1x64, .f32⟩
  | .hbm, ⟨31, _⟩ => ⟨S16x207x1x64, .f32⟩
  | .hbm, ⟨32, _⟩ => ⟨S_, .f32⟩
  | .hbm, ⟨33, _⟩ => ⟨S16x207x1x64, .f32⟩
  | .hbm, ⟨34, _⟩ => ⟨S16x207x1x64, .f32⟩
  | .hbm, ⟨35, _⟩ => ⟨S_, .f32⟩
  | .hbm, ⟨36, _⟩ => ⟨S16x207x1x64, .f32⟩
  | .hbm, ⟨37, _⟩ => ⟨S16x207x1x64, .f32⟩
  | .hbm, ⟨38, _⟩ => ⟨S16x207x1x64, .f32⟩
  | .hbm, ⟨39, _⟩ => ⟨S16x207x1x64, .f32⟩
  | .hbm, ⟨40, _⟩ => ⟨S16x207x1x64, .f32⟩
  | .hbm, ⟨41, _⟩ => ⟨S16x207x1x64, .f32⟩
  | .hbm, ⟨42, _⟩ => ⟨S16x207x1x64, .f32⟩
  | .hbm, ⟨43, _⟩ => ⟨S_, .f32⟩
  | .hbm, ⟨44, _⟩ => ⟨S16x207x1x64, .f32⟩
  | .hbm, ⟨45, _⟩ => ⟨S16x207x1x64, .f32⟩
  | .hbm, ⟨46, _⟩ => ⟨S16x207x1x64, .f32⟩
  | .hbm, ⟨47, _⟩ => ⟨S16x207x1x64, .f32⟩
  | .hbm, ⟨48, _⟩ => ⟨S16x207x1x64, .f32⟩
  | _, _ => ⟨S16x207x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]

class Facts₀ : Prop where
  bcast_S16x207x64_S16x207x1x64_0_1_3 : S16x207x64.BroadcastsInDim S16x207x1x64 (![0, 1, 3] : Fin 3 → Fin S16x207x1x64.rank)
  slices_S16x207x1x192_S16x207x1x64_0_0_0_0 : S16x207x1x192.Slices ![0, 0, 0, 0] S16x207x1x64
  slices_S16x207x1x192_S16x207x1x64_0_0_0_64 : S16x207x1x192.Slices ![0, 0, 0, 64] S16x207x1x64
  slices_S16x207x1x192_S16x207x1x64_0_0_0_128 : S16x207x1x192.Slices ![0, 0, 0, 128] S16x207x1x64
  slices_S16x207x64x192_S16x207x64x64_0_0_0_0 : S16x207x64x192.Slices ![0, 0, 0, 0] S16x207x64x64
  slices_S16x207x64x192_S16x207x64x64_0_0_0_64 : S16x207x64x192.Slices ![0, 0, 0, 64] S16x207x64x64
  slices_S16x207x64x192_S16x207x64x64_0_0_0_128 : S16x207x64x192.Slices ![0, 0, 0, 128] S16x207x64x64
  bcast_S_S16x207x1x64 : S_.BroadcastsInDim S16x207x1x64 (![] : Fin 0 → Fin S16x207x1x64.rank)
  dot_S16x207x1x64_S16x207x64x192_S16x207x1x192_3_2_2_3_01_01_wf : DotDims.WF S16x207x1x64 S16x207x64x192 S16x207x1x192 [3] [2] [2] [3] [0, 1] [0, 1]
  dot_S16x207x1x64_S16x207x64x64_S16x207x1x64_3_2_2_3_01_01_wf : DotDims.WF S16x207x1x64 S16x207x64x64 S16x207x1x64 [3] [2] [2] [3] [0, 1] [0, 1]

variable [Facts₀]

def dot_S16x207x1x64_S16x207x64x192_S16x207x1x192_3_2_2_3_01_01 : DotDims S16x207x1x64 S16x207x64x192 S16x207x1x192 where
  lhsContracting := [3]
  rhsContracting := [2]
  lhsNonContracting := [2]
  rhsNonContracting := [3]
  lhsBatch := [0, 1]
  rhsBatch := [0, 1]
  wf := dot_S16x207x1x64_S16x207x64x192_S16x207x1x192_3_2_2_3_01_01_wf
def dot_S16x207x1x64_S16x207x64x64_S16x207x1x64_3_2_2_3_01_01 : DotDims S16x207x1x64 S16x207x64x64 S16x207x1x64 where
  lhsContracting := [3]
  rhsContracting := [2]
  lhsNonContracting := [2]
  rhsNonContracting := [3]
  lhsBatch := [0, 1]
  rhsBatch := [0, 1]
  wf := dot_S16x207x1x64_S16x207x64x64_S16x207x1x64_3_2_2_3_01_01_wf

class Facts : Prop extends Facts₀ where

variable [Facts]
-- ==== Proof.GruCell.lean ====
/-
  One step of a gated recurrent unit for a single node, over the extended reals.

  A node carries an input row x (64 entries), a hidden row h (64 entries), two weight matrices wx, wh of 64 rows and
  192 columns, and a bias row b (192 entries). The 192 columns are three groups of 64: the reset gate's, the update
  gate's and the candidate's. For a column g and a row vector s the pre-activation is

      pre s g = (Σ_k x_k · wx_{k,g} + Σ_k s_k · wh_{k,g}) + b_g ,

  and the step is

      r_k = σ(pre h k),   z_j = σ(pre h (64 + j)),   c_j = tanh(pre (r ⊙ h) (128 + j)),
      out_j = (1 − z_j) · h_j + z_j · c_j ,

  with σ the logistic function 1 / (1 + e^(−t)). Every node is independent of every other: nothing is summed across
  nodes. The arrays below number the nodes along their leading axis (`rows`), or along two leading axes (`grid`).
-/
import Idealize.ShloMosaic.PureOps.Ideal
import Idealize.ShloMosaic.Lib.ValueIdx

noncomputable section

namespace Cert.Gru

open Idealize.ShloMosaic Idealize.ShloMosaic.ValueIdx

/-- Column j of the reset gate's group. -/
def colR (j : Fin 64) : Fin 192 := ⟨j.val, by have := j.isLt; omega⟩
/-- Column j of the update gate's group. -/
def colZ (j : Fin 64) : Fin 192 := ⟨64 + j.val, by have := j.isLt; omega⟩
/-- Column j of the candidate's group. -/
def colC (j : Fin 64) : Fin 192 := ⟨128 + j.val, by have := j.isLt; omega⟩

/-- The float literal 1.0 as an extended real. -/
abbrev one : EReal := Ideal.ofBits .f32 0x3F800000#32

/-- It is the number one: sign 0, biased exponent 127, fraction 0. -/
theorem one_eq : one = 1 := by
  simp [one, Ideal.ofBits, Ideal.ieee, -EReal.coe_mul]; norm_num

/-- The pre-activation of column g against the row vector s. -/
def pre (x : Fin 64 → EReal) (wx wh : Fin 64 → Fin 192 → EReal) (b : Fin 192 → EReal) (s : Fin 64 → EReal)
    (g : Fin 192) : EReal :=
  ((∑ k : Fin 64, x k * wx k g) + ∑ k : Fin 64, s k * wh k g) + b g

/-- The node's new hidden entry j. -/
def cell (x h : Fin 64 → EReal) (wx wh : Fin 64 → Fin 192 → EReal) (b : Fin 192 → EReal) (j : Fin 64) : EReal :=
  (one - Ideal.logistic (pre x wx wh b h (colZ j))) * h j
    + Ideal.logistic (pre x wx wh b h (colZ j))
      * Ideal.tanh (pre x wx wh b (fun k => Ideal.logistic (pre x wx wh b h (colR k)) * h k) (colC j))

/-- The step depends on the node's data only through their entries. -/
theorem cell_congr {x x' h h' : Fin 64 → EReal} {wx wx' wh wh' : Fin 64 → Fin 192 → EReal} {b b' : Fin 192 → EReal}
    (hx : ∀ k, x k = x' k) (hh : ∀ k, h k = h' k) (hwx : ∀ k g, wx k g = wx' k g) (hwh : ∀ k g, wh k g = wh' k g)
    (hb : ∀ g, b g = b' g) (j : Fin 64) : cell x h wx wh b j = cell x' h' wx' wh' b' j := by
  obtain rfl : x = x' := funext hx
  obtain rfl : h = h' := funext hh
  obtain rfl : wx = wx' := funext fun k => funext (hwx k)
  obtain rfl : wh = wh' := funext fun k => funext (hwh k)
  obtain rfl : b = b' := funext hb
  rfl

/-! ## Nodes along one leading axis -/

/-- Node p's new hidden entry j, the nodes numbered by the leading axis of arrays [N,1,64], [N,64,192], [N,1,192]. -/
def rows {N : Nat} (X H : (⟨3, ![N, 1, 64]⟩ : Shape).Idx → EReal) (WX WH : (⟨3, ![N, 64, 192]⟩ : Shape).Idx → EReal)
    (B : (⟨3, ![N, 1, 192]⟩ : Shape).Idx → EReal) (p : Fin N) (j : Fin 64) : EReal :=
  cell (fun k => X (ix3 p 0 k)) (fun k => H (ix3 p 0 k)) (fun k g => WX (ix3 p k g)) (fun k g => WH (ix3 p k g))
    (fun g => B (ix3 p 0 g)) j

/-- The array [N,1,64] of all nodes' new hidden rows. -/
def rowsArr {N : Nat} (X H : (⟨3, ![N, 1, 64]⟩ : Shape).Idx → EReal) (WX WH : (⟨3, ![N, 64, 192]⟩ : Shape).Idx → EReal)
    (B : (⟨3, ![N, 1, 192]⟩ : Shape).Idx → EReal) : (⟨3, ![N, 1, 64]⟩ : Shape).Idx → EReal :=
  fun i => rows X H WX WH B ⟨(i 0).val, (i 0).isLt⟩ ⟨(i 2).val, (i 2).isLt⟩

theorem rowsArr_apply {N : Nat} (X H : (⟨3, ![N, 1, 64]⟩ : Shape).Idx → EReal)
    (WX WH : (⟨3, ![N, 64, 192]⟩ : Shape).Idx → EReal) (B : (⟨3, ![N, 1, 192]⟩ : Shape).Idx → EReal)
    (p : Fin N) (u : Fin 1) (j : Fin 64) : rowsArr X H WX WH B (ix3 p u j) = rows X H WX WH B p j := rfl

/-- If node y₀ of one family of arrays and node i₀ of another have the same rows, the two arrays of new hidden rows
    agree at (y₀, ·, j) and (i₀, ·, j): a node's step reads only that node's rows. -/
theorem rowsArr_congr {N M : Nat} (X' H' : (⟨3, ![N, 1, 64]⟩ : Shape).Idx → EReal)
    (WX' WH' : (⟨3, ![N, 64, 192]⟩ : Shape).Idx → EReal) (B' : (⟨3, ![N, 1, 192]⟩ : Shape).Idx → EReal)
    (X H : (⟨3, ![M, 1, 64]⟩ : Shape).Idx → EReal) (WX WH : (⟨3, ![M, 64, 192]⟩ : Shape).Idx → EReal)
    (B : (⟨3, ![M, 1, 192]⟩ : Shape).Idx → EReal)
    (y : (⟨3, ![N, 1, 64]⟩ : Shape).Idx) (i : (⟨3, ![M, 1, 64]⟩ : Shape).Idx) (hj : (i 2).val = (y 2).val)
    (hX : ∀ k : Fin 64, X' (ix3 ⟨(y 0).val, (y 0).isLt⟩ 0 k) = X (ix3 ⟨(i 0).val, (i 0).isLt⟩ 0 k))
    (hH : ∀ k : Fin 64, H' (ix3 ⟨(y 0).val, (y 0).isLt⟩ 0 k) = H (ix3 ⟨(i 0).val, (i 0).isLt⟩ 0 k))
    (hWX : ∀ (k : Fin 64) (g : Fin 192),
      WX' (ix3 ⟨(y 0).val, (y 0).isLt⟩ k g) = WX (ix3 ⟨(i 0).val, (i 0).isLt⟩ k g))
    (hWH : ∀ (k : Fin 64) (g : Fin 192),
      WH' (ix3 ⟨(y 0).val, (y 0).isLt⟩ k g) = WH (ix3 ⟨(i 0).val, (i 0).isLt⟩ k g))
    (hB : ∀ g : Fin 192, B' (ix3 ⟨(y 0).val, (y 0).isLt⟩ 0 g) = B (ix3 ⟨(i 0).val, (i 0).isLt⟩ 0 g)) :
    rowsArr X' H' WX' WH' B' y = rowsArr X H WX WH B i := by
  have hj' : (⟨(y 2).val, (y 2).isLt⟩ : Fin 64) = ⟨(i 2).val, (i 2).isLt⟩ := Fin.ext hj.symm
  unfold rowsArr rows
  rw [hj']
  exact cell_congr hX hH hWX hWH hB _

/-! ## Nodes along two leading axes -/

/-- Node (b, n)'s new hidden entry j, over arrays [16,207,64], [16,207,1,64], [16,207,64,192], [16,207,1,192]. -/
def grid (X : (⟨3, ![16, 207, 64]⟩ : Shape).Idx → EReal) (H : (⟨4, ![16, 207, 1, 64]⟩ : Shape).Idx → EReal)
    (WX WH : (⟨4, ![16, 207, 64, 192]⟩ : Shape).Idx → EReal) (B : (⟨4, ![16, 207, 1, 192]⟩ : Shape).Idx → EReal)
    (b : Fin 16) (n : Fin 207) (j : Fin 64) : EReal :=
  cell (fun k => X (ix3 b n k)) (fun k => H (ix4 b n 0 k)) (fun k g => WX (ix4 b n k g)) (fun k g => WH (ix4 b n k g))
    (fun g => B (ix4 b n 0 g)) j

/-- The array [16,207,1,64] of all nodes' new hidden rows. -/
def gridArr (X : (⟨3, ![16, 207, 64]⟩ : Shape).Idx → EReal) (H : (⟨4, ![16, 207, 1, 64]⟩ : Shape).Idx → EReal)
    (WX WH : (⟨4, ![16, 207, 64, 192]⟩ : Shape).Idx → EReal) (B : (⟨4, ![16, 207, 1, 192]⟩ : Shape).Idx → EReal) :
    (⟨4, ![16, 207, 1, 64]⟩ : Shape).Idx → EReal :=
  fun i => grid X H WX WH B ⟨(i 0).val, (i 0).isLt⟩ ⟨(i 1).val, (i 1).isLt⟩ ⟨(i 3).val, (i 3).isLt⟩

theorem gridArr_apply (X : (⟨3, ![16, 207, 64]⟩ : Shape).Idx → EReal) (H : (⟨4, ![16, 207, 1, 64]⟩ : Shape).Idx → EReal)
    (WX WH : (⟨4, ![16, 207, 64, 192]⟩ : Shape).Idx → EReal) (B : (⟨4, ![16, 207, 1, 192]⟩ : Shape).Idx → EReal)
    (b : Fin 16) (n : Fin 207) (u : Fin 1) (j : Fin 64) : gridArr X H WX WH B (ix4 b n u j) = grid X H WX WH B b n j := rfl

end Cert.Gru

end
-- ==== Proof.LibAxisSums.lean ====
/-
  Sums along axes of small-rank arrays, read at coordinates, at the ideal values (floats are extended reals,
  every sum exact). For any extents and any float type:

  * a vector sum over the MIDDLE axis of a rank-3 array [a, b, c] into [a, c], at (p, w), is the sum over
    n < b of the array at (p, n, w) (`multiReduction_add_mid_apply`);
  * a vector sum over the LAST axis of a rank-2 array [a, b] into [a], at p, is the sum over k < b of the array
    at (p, k) (`multiReduction_add_last_apply`);
  * a host sum over the TWO TRAILING axes of a rank-3 array [a, b, c] into [a], at p, is the initial value plus
    the double sum over n < b and k < c of the array at (p, n, k) (`hostReduceAdd_trailing_two_apply`): the
    indices that drop to p are exactly the (p, n, k), in bijection with the pairs (n, k).
-/
import Idealize.ShloMosaic.PureOps.Ideal.Laws
import Idealize.ShloMosaic.Lib.ValueIdx

noncomputable section

namespace Cert.Lib.AxisSums

open Idealize.ShloMosaic Idealize.ShloMosaic.ValueIdx

variable {φ : FTy}

/-- A vector sum over the middle axis of [a, b, c], read at (p, w): the sum over the middle coordinate. -/
theorem multiReduction_add_mid_apply {a b c : Nat} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (p : Fin a) (w : Fin c) :
    multiReduction .add [1] ⟨2, ![a, c]⟩ src acc h hφ hacc (ix2 p w) = ∑ n : Fin b, src (ix3 p n w) := by
  rw [Ideal.multiReduction_add_single]
  refine Finset.sum_congr rfl fun n _ => ?_
  exact congrArg src (funext fun d => Fin.ext (by match d with | ⟨0, _⟩ => rfl | ⟨1, _⟩ => rfl | ⟨2, _⟩ => rfl))

/-- A vector sum over the last axis of [a, b], read at p: the sum over the last coordinate. -/
theorem multiReduction_add_last_apply {a b : Nat} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => ?_
  exact congrArg src (funext fun d => Fin.ext (by match d with | ⟨0, _⟩ => rfl | ⟨1, _⟩ => rfl))

/-- An index of [a, b, c] drops, over its two trailing axes, to its leading coordinate. -/
theorem drop_trailing_two {a b c : Nat} (h : (⟨3, ![a, b, c]⟩ : Shape).ReducesTo [1, 2] ⟨1, ![a]⟩)
    (i : (⟨3, ![a, b, c]⟩ : Shape).Idx) : h.drop i = ix1 (i 0) := by
  funext d
  match d with
  | ⟨0, _⟩ => exact Fin.ext (h.drop_apply_val_of_eq i ⟨0, Nat.zero_lt_one⟩ 0 (Nat.zero_lt_one) rfl)

/-- A host sum over the two trailing axes of [a, b, c], read at p: the initial value plus the double sum over
    the two trailing coordinates. -/
theorem hostReduceAdd_trailing_two_apply {a b c : Nat} (h : (⟨3, ![a, b, c]⟩ : Shape).ReducesTo [1, 2] ⟨1, ![a]⟩)
    (x : (⟨3, ![a, b, c]⟩ : Shape).Idx → EReal) (init : EReal) (p : Fin a) :
    Ideal.hostReduceAdd h x init (ix1 p) = init + ∑ n : Fin b, ∑ k : Fin c, x (ix3 p n k) := by
  unfold Ideal.hostReduceAdd
  refine congrArg (init + ·) ?_
  rw [← Finset.sum_product' (Finset.univ : Finset (Fin b)) (Finset.univ : Finset (Fin c)) fun n k => x (ix3 p n k)]
  refine Finset.sum_nbij' (fun i => (i 1, i 2)) (fun q => ix3 p q.1 q.2) ?_ ?_ ?_ ?_ ?_
  · intro i _; exact Finset.mem_product.2 ⟨Finset.mem_univ _, Finset.mem_univ _⟩
  · intro q _
    refine Finset.mem_filter.2 ⟨Finset.mem_univ _, ?_⟩
    rw [drop_trailing_two]
    rfl
  · intro i hi
    have hj := (Finset.mem_filter.1 hi).2
    rw [drop_trailing_two] at hj
    have h0 : i 0 = p := congrFun hj 0
    funext d
    match d with
    | ⟨0, _⟩ => exact h0.symm
    | ⟨1, _⟩ => rfl
    | ⟨2, _⟩ => rfl
  · intro q _; rfl
  · intro i hi
    have hj := (Finset.mem_filter.1 hi).2
    rw [drop_trailing_two] at hj
    have h0 : i 0 = p := congrFun hj 0
    refine congrArg x ?_
    funext d
    match d with
    | ⟨0, _⟩ => exact h0
    | ⟨1, _⟩ => rfl
    | ⟨2, _⟩ => rfl

end Cert.Lib.AxisSums

end
-- ==== Proof.LibRowContraction.lean ====
/-
  A row vector times a matrix, spelt without a matrix product — for any row count N, contraction length K, width W
  and element type (the sum at the ideal values, where floats are extended reals and every sum is exact).

  A batch of rows is kept as [N, 1, K] (one row per leading index) and a batch of matrices as [N, K, W]. To multiply
  row p into matrix p, the row is laid down the matrix's K axis — viewed as [N, K], given a trailing unit axis
  [N, K, 1], broadcast along it to [N, K, W] — multiplied entry by entry with the matrix, and summed over the middle
  axis into [N, W], which is viewed again as [N, 1, W]. Read at (p, ·, g) the result is

      Σ_{k < K} row_p[k] · matrix_p[k, g] .

  The layout steps, each read at coordinates (any element type):
  * `squeeze_apply`: [N, 1, K] viewed as [N, K], at (p, k), is the array at (p, 0, k);
  * `trailingUnit_apply`: [N, K] viewed as [N, K, 1], at (p, k, ·), is the array at (p, k);
  * `keepMiddle_apply`: [N, W] viewed as [N, 1, W], at (p, ·, g), is the array at (p, g);
  * `rowDownColumns_apply`: the row laid down the K axis and broadcast over W, at (p, k, g), is the row's entry k;
  * `columnGroup_apply`: V consecutive columns from column `off` of [N, M, W], at (p, k, j), is the array at (p, k, off + j).
  And the sum: `rowTimesMatrix_apply`.
-/
import proofs.«167887_j79929341379004_2_alg».proof.Proof.LibAxisSums
import Idealize.ShloMosaic.Lib.Pipeline.Value

noncomputable section

namespace Cert.Lib.RowContraction

open Idealize.ShloMosaic Idealize.ShloMosaic.ValueIdx

section Layout
variable {α : Type} {N K W : Nat}

/-- [N, 1, K] viewed as [N, K]: the unit axis drops. -/
theorem squeeze_apply (s : (⟨3, ![N, 1, K]⟩ : Shape).Idx → α) (h : (⟨3, ![N, 1, K]⟩ : Shape).ShapeCasts ⟨2, ![N, K]⟩)
    (p : Fin N) (k : Fin K) : shapeCast ⟨2, ![N, K]⟩ s h (ix2 p k) = s (ix3 p 0 k) :=
  shapeCast_apply s h (ix2 p k) (ix3 p 0 k) (by
    rw [Shape.rowMajor_val_three, Shape.rowMajor_val_two]
    show (p.val * 1 + 0) * K + k.val = p.val * K + k.val
    rw [Nat.mul_one, Nat.add_zero])

/-- [N, K] viewed as [N, K, 1]: a trailing unit axis. -/
theorem trailingUnit_apply (v : (⟨2, ![N, K]⟩ : Shape).Idx → α) (h : (⟨2, ![N, K]⟩ : Shape).ShapeCasts ⟨3, ![N, K, 1]⟩)
    (p : Fin N) (k : Fin K) (u : Fin 1) : shapeCast ⟨3, ![N, K, 1]⟩ v h (ix3 p k u) = v (ix2 p k) :=
  shapeCast_apply v h (ix3 p k u) (ix2 p k) (by
    rw [Shape.rowMajor_val_three, Shape.rowMajor_val_two]
    show p.val * K + k.val = (p.val * K + k.val) * 1 + u.val
    have := u.isLt
    omega)

/-- [N, W] viewed as [N, 1, W]: a unit axis in the middle. -/
theorem keepMiddle_apply (v : (⟨2, ![N, W]⟩ : Shape).Idx → α) (h : (⟨2, ![N, W]⟩ : Shape).ShapeCasts ⟨3, ![N, 1, W]⟩)
    (p : Fin N) (u : Fin 1) (g : Fin W) : shapeCast ⟨3, ![N, 1, W]⟩ v h (ix3 p u g) = v (ix2 p g) :=
  shapeCast_apply v h (ix3 p u g) (ix2 p g) (by
    rw [Shape.rowMajor_val_three, Shape.rowMajor_val_two]
    show p.val * W + g.val = (p.val * 1 + u.val) * W + g.val
    have hu : u.val = 0 := by have := u.isLt; omega
    rw [hu, Nat.mul_one, Nat.add_zero])

/-- The row laid down the K axis and broadcast over the W axis: entry (p, k, g) is the row's entry k. -/
theorem rowDownColumns_apply (s : (⟨3, ![N, 1, K]⟩ : Shape).Idx → α)
    (h1 : (⟨3, ![N, 1, K]⟩ : Shape).ShapeCasts ⟨2, ![N, K]⟩) (h2 : (⟨2, ![N, K]⟩ : Shape).ShapeCasts ⟨3, ![N, K, 1]⟩)
    (h3 : (⟨3, ![N, K, 1]⟩ : Shape).Broadcasts ⟨3, ![N, K, W]⟩) (p : Fin N) (k : Fin K) (g : Fin W) :
    broadcastTo ⟨3, ![N, K, W]⟩ (shapeCast ⟨3, ![N, K, 1]⟩ (shapeCast ⟨2, ![N, K]⟩ s h1) h2) h3 (ix3 p k g)
      = s (ix3 p 0 k) := by
  refine (broadcastTo_apply _ h3 (ix3 p k g) (ix3 p k 0) fun a => ?_).trans ?_
  · match a with
    | ⟨0, _⟩ =>
      show p.val = if N = 1 then 0 else p.val
      split_ifs with hN
      · have := p.isLt; omega
      · rfl
    | ⟨1, _⟩ =>
      show k.val = if K = 1 then 0 else k.val
      split_ifs with hK
      · have := k.isLt; omega
      · rfl
    | ⟨2, _⟩ => show 0 = if (1 : Nat) = 1 then 0 else g.val; rw [if_pos rfl]
  · exact (trailingUnit_apply _ h2 p k 0).trans (squeeze_apply s h1 p k)

/-- A run of V columns starting at column `off` of an array [N, M, W], read at (p, k, j): the array at (p, k, off + j). -/
theorem columnGroup_apply {M V : Nat} (off : Nat) (v : (⟨3, ![N, M, W]⟩ : Shape).Idx → α)
    (h : (⟨3, ![N, M, W]⟩ : Shape).Slices ![0, 0, off] ⟨3, ![N, M, V]⟩) (p : Fin N) (k : Fin M) (j : Fin V) (g : Fin W)
    (hg : g.val = off + j.val) : extractStridedSlice ⟨3, ![N, M, V]⟩ ![0, 0, off] v h (ix3 p k j) = v (ix3 p k g) :=
  extractStridedSlice_apply ![0, 0, off] v h (ix3 p k j) (ix3 p k g) fun a => match a with
    | ⟨0, _⟩ => by show p.val = 0 + p.val; omega
    | ⟨1, _⟩ => by show k.val = 0 + k.val; omega
    | ⟨2, _⟩ => by show g.val = off + j.val; exact hg

end Layout

/-- Row p times matrix p, read at (p, ·, g): the sum over the contraction index. -/
theorem rowTimesMatrix_apply {φ : FTy} {N K W : Nat} (s : FVec Ideal ⟨3, ![N, 1, K]⟩ φ) (w : FVec Ideal ⟨3, ![N, K, W]⟩ φ)
    (acc : BitVec φ.bits) (h1 : (⟨3, ![N, 1, K]⟩ : Shape).ShapeCasts ⟨2, ![N, K]⟩)
    (h2 : (⟨2, ![N, K]⟩ : Shape).ShapeCasts ⟨3, ![N, K, 1]⟩) (h3 : (⟨3, ![N, K, 1]⟩ : Shape).Broadcasts ⟨3, ![N, K, W]⟩)
    (h4 : (⟨3, ![N, K, W]⟩ : Shape).Reduces [1] ⟨2, ![N, W]⟩) (hφ : FKind.Formats φ)
    (hacc : acc = FKind.add.neutral φ hφ) (h5 : (⟨2, ![N, W]⟩ : Shape).ShapeCasts ⟨3, ![N, 1, W]⟩)
    (p : Fin N) (u : Fin 1) (g : Fin W) :
    shapeCast ⟨3, ![N, 1, W]⟩
        (multiReduction .add [1] ⟨2, ![N, W]⟩
          (mulf (broadcastTo ⟨3, ![N, K, W]⟩ (shapeCast ⟨3, ![N, K, 1]⟩ (shapeCast ⟨2, ![N, K]⟩ s h1) h2) h3) w)
          acc h4 hφ hacc) h5 (ix3 p u g)
      = ∑ k : Fin K, s (ix3 p 0 k) * w (ix3 p k g) := by
  refine (keepMiddle_apply _ h5 p u g).trans ?_
  refine (Cert.Lib.AxisSums.multiReduction_add_mid_apply _ acc h4 hφ hacc p g).trans ?_
  refine Finset.sum_congr rfl fun k _ => ?_
  exact congrArg (· * w (ix3 p k g)) (rowDownColumns_apply s h1 h2 h3 p k g)

end Cert.Lib.RowContraction

end
-- ==== Proof.BlockValue.lean ====
/-
  What the kernel's body stores for one block of 69 nodes, read at an index: node q's new hidden entry j is the gated
  recurrent step (GruCell) of node q's rows of the five input blocks.

  The body multiplies each node's input row into its own 64 × 192 matrix by laying the row down the matrix's rows,
  multiplying entry by entry and summing over the 64 rows; it does the same with the hidden row against the reset and
  update column groups of the second matrix, and with the reset-gated hidden row r ⊙ h against the candidate column
  group. Each of those is a row-times-matrix sum (LibRowContraction); the column groups are runs of 64 columns at
  offsets 0, 64 and 128; the rest is pointwise.
-/
import proofs.«167887_j79929341379004_2_alg».proof.Proof.Gen.KernelIdeal.Frame
import proofs.«167887_j79929341379004_2_alg».proof.Proof.GruCell
import proofs.«167887_j79929341379004_2_alg».proof.Proof.LibRowContraction

noncomputable section

namespace Cert.KernelIdeal.BlockValue

open Cert.KernelIdeal Cert.KernelIdeal.Gen Idealize.ShloMosaic Idealize.ShloMosaic.ValueIdx
open Cert.Gru Cert.Lib.RowContraction

/-! ## The pieces -/

/-- The three same-shape views of the loaded blocks are the blocks. -/
theorem hidden_eq (v0 : Vec Ideal S69x1x64 .f32) : k0_pay2 (F := Ideal) v0 = v0 := shapeCast_self _ _
theorem weights_eq (v6 : Vec Ideal S69x64x192 .f32) : k0_pay3 (F := Ideal) v6 = v6 := shapeCast_self _ _
theorem bias_eq (v8 : Vec Ideal S69x1x192 .f32) : k0_pay4 (F := Ideal) v8 = v8 := shapeCast_self _ _

/-- The input row times the first matrix: entry (q, ·, g) is Σ_k x_q[k] · Wx_q[k, g]. -/
theorem inputProj_apply (v2 : Vec Ideal S69x1x64 .f32) (v4 : Vec Ideal S69x64x192 .f32) (q : Fin 69) (u : Fin 1) (g : Fin 192) :
    k0_pay5 (F := Ideal) v2 v4 (ix3 q u g) = ∑ k : Fin 64, v2 (ix3 q 0 k) * v4 (ix3 q k g) := by
  refine (rowTimesMatrix_apply (φ := .f32) (shapeCast S69x1x64 v2 shapeCasts_S69x1x64_S69x1x64)
    (shapeCast S69x64x192 v4 shapeCasts_S69x64x192_S69x64x192) 0x00000000#32 shapeCasts_S69x1x64_S69x64
    shapeCasts_S69x64_S69x64x1 broadcasts_S69x64x1_S69x64x192 reduces_S69x64x192_S69x192 (.inl rfl) rfl
    shapeCasts_S69x192_S69x1x192 q u g).trans ?_
  rw [shapeCast_self, shapeCast_self]

/-- A row block times a block of 64 × 64 matrices, as the body spells it. -/
def hiddenProj (s : FVec Ideal S69x1x64 .f32) (w : FVec Ideal S69x64x64 .f32) : FVec Ideal S69x1x64 .f32 :=
  shapeCast S69x1x64
    (multiReduction .add [1] S69x64
      (mulf (broadcastTo S69x64x64 (shapeCast S69x64x1 (shapeCast S69x64 s shapeCasts_S69x1x64_S69x64)
        shapeCasts_S69x64_S69x64x1) broadcasts_S69x64x1_S69x64x64) w)
      0x00000000#32 reduces_S69x64x64_S69x64 (.inl rfl) rfl) shapeCasts_S69x64_S69x1x64

/-- Entry (q, ·, j) is Σ_k s_q[k] · w_q[k, j]. -/
theorem hiddenProj_apply (s : FVec Ideal S69x1x64 .f32) (w : FVec Ideal S69x64x64 .f32) (q : Fin 69) (u : Fin 1) (j : Fin 64) :
    hiddenProj s w (ix3 q u j) = ∑ k : Fin 64, s (ix3 q 0 k) * w (ix3 q k j) :=
  rowTimesMatrix_apply (φ := .f32) s w 0x00000000#32 shapeCasts_S69x1x64_S69x64 shapeCasts_S69x64_S69x64x1
    broadcasts_S69x64x1_S69x64x64 reduces_S69x64x64_S69x64 (.inl rfl) rfl shapeCasts_S69x64_S69x1x64 q u j

/-- The reset gate: r_q[j] = σ((x·Wx)[j] + (h·Wh)[j] + b[j]) over the first column group. -/
theorem reset_apply (v0 v2 : Vec Ideal S69x1x64 .f32) (v4 v6 : Vec Ideal S69x64x192 .f32) (v8 : Vec Ideal S69x1x192 .f32)
    (q : Fin 69) (j : Fin 64) :
    k0_pay10 (F := Ideal) v0 v2 v4 v6 v8 (ix3 q 0 j)
      = Ideal.logistic (((∑ k : Fin 64, v2 (ix3 q 0 k) * v4 (ix3 q k (colR j)))
          + ∑ k : Fin 64, v0 (ix3 q 0 k) * v6 (ix3 q k (colR j))) + v8 (ix3 q 0 (colR j))) := by
  have hA : extractStridedSlice S69x1x64 ![0, 0, 0] (k0_pay5 (F := Ideal) v2 v4) slices_S69x1x192_o0_0_0_S69x1x64 (ix3 q 0 j)
      = ∑ k : Fin 64, v2 (ix3 q 0 k) * v4 (ix3 q k (colR j)) :=
    (columnGroup_apply 0 _ _ q 0 j (colR j) (by show j.val = 0 + j.val; omega)).trans (inputProj_apply v2 v4 q 0 (colR j))
  have hB : hiddenProj (k0_pay2 (F := Ideal) v0)
        (extractStridedSlice S69x64x64 ![0, 0, 0] (k0_pay3 (F := Ideal) v6) slices_S69x64x192_o0_0_0_S69x64x64) (ix3 q 0 j)
      = ∑ k : Fin 64, v0 (ix3 q 0 k) * v6 (ix3 q k (colR j)) := by
    rw [hiddenProj_apply, hidden_eq, weights_eq]
    refine Finset.sum_congr rfl fun k _ => ?_
    rw [columnGroup_apply 0 v6 _ q k j (colR j) (by show j.val = 0 + j.val; omega)]
  have hC : extractStridedSlice S69x1x64 ![0, 0, 0] (k0_pay4 (F := Ideal) v8) slices_S69x1x192_o0_0_0_S69x1x64 (ix3 q 0 j)
      = v8 (ix3 q 0 (colR j)) := by
    rw [bias_eq]; exact columnGroup_apply 0 v8 _ q 0 j (colR j) (by show j.val = 0 + j.val; omega)
  rw [← hA, ← hB, ← hC]
  rfl

/-- The update gate's pre-activation without its bias: (x·Wx)[64 + j] + (h·Wh)[64 + j]. -/
theorem updatePre_apply (v0 v2 : Vec Ideal S69x1x64 .f32) (v4 v6 : Vec Ideal S69x64x192 .f32) (q : Fin 69) (j : Fin 64) :
    k0_pay11 (F := Ideal) v0 v2 v4 v6 (ix3 q 0 j)
      = (∑ k : Fin 64, v2 (ix3 q 0 k) * v4 (ix3 q k (colZ j))) + ∑ k : Fin 64, v0 (ix3 q 0 k) * v6 (ix3 q k (colZ j)) := by
  have hA : extractStridedSlice S69x1x64 ![0, 0, 64] (k0_pay5 (F := Ideal) v2 v4) slices_S69x1x192_o0_0_64_S69x1x64 (ix3 q 0 j)
      = ∑ k : Fin 64, v2 (ix3 q 0 k) * v4 (ix3 q k (colZ j)) :=
    (columnGroup_apply 64 _ _ q 0 j (colZ j) rfl).trans (inputProj_apply v2 v4 q 0 (colZ j))
  have hB : hiddenProj (k0_pay2 (F := Ideal) v0)
        (extractStridedSlice S69x64x64 ![0, 0, 64] (k0_pay3 (F := Ideal) v6) slices_S69x64x192_o0_0_64_S69x64x64) (ix3 q 0 j)
      = ∑ k : Fin 64, v0 (ix3 q 0 k) * v6 (ix3 q k (colZ j)) := by
    rw [hiddenProj_apply, hidden_eq, weights_eq]
    refine Finset.sum_congr rfl fun k _ => ?_
    rw [columnGroup_apply 64 v6 _ q k j (colZ j) rfl]
  rw [← hA, ← hB]
  rfl

/-- The candidate's share of x·Wx, of the second matrix, and the update and candidate biases: column groups. -/
theorem candInput_apply (v2 : Vec Ideal S69x1x64 .f32) (v4 : Vec Ideal S69x64x192 .f32) (q : Fin 69) (j : Fin 64) :
    k0_pay6 (F := Ideal) v2 v4 (ix3 q 0 j) = ∑ k : Fin 64, v2 (ix3 q 0 k) * v4 (ix3 q k (colC j)) :=
  (columnGroup_apply 128 (k0_pay5 (F := Ideal) v2 v4) slices_S69x1x192_o0_0_128_S69x1x64 q 0 j (colC j) rfl).trans
    (inputProj_apply v2 v4 q 0 (colC j))
theorem candWeights_apply (v6 : Vec Ideal S69x64x192 .f32) (q : Fin 69) (k j : Fin 64) :
    k0_pay7 (F := Ideal) v6 (ix3 q k j) = v6 (ix3 q k (colC j)) := by
  unfold k0_pay7; rw [weights_eq]; exact columnGroup_apply 128 v6 _ q k j (colC j) rfl
theorem updateBias_apply (v8 : Vec Ideal S69x1x192 .f32) (q : Fin 69) (j : Fin 64) :
    k0_pay8 (F := Ideal) v8 (ix3 q 0 j) = v8 (ix3 q 0 (colZ j)) := by
  unfold k0_pay8; rw [bias_eq]; exact columnGroup_apply 64 v8 _ q 0 j (colZ j) rfl
theorem candBias_apply (v8 : Vec Ideal S69x1x192 .f32) (q : Fin 69) (j : Fin 64) :
    k0_pay9 (F := Ideal) v8 (ix3 q 0 j) = v8 (ix3 q 0 (colC j)) := by
  unfold k0_pay9; rw [bias_eq]; exact columnGroup_apply 128 v8 _ q 0 j (colC j) rfl

/-- The last stretch of the body — the update gate, the candidate over r ⊙ h, and the blend — pointwise in what it is
    handed. -/
theorem blend_apply (v1 v18 : FVec Ideal S69x1x64 .f32) (v21 : FVec Ideal S69x64x64 .f32)
    (v23 v24 v39 v40 : FVec Ideal S69x1x64 .f32) (q : Fin 69) (j : Fin 64) :
    k0_pay1 (F := Ideal) v1 v18 v21 v23 v24 v39 v40 (ix3 q 0 j)
      = (one - Ideal.logistic (v40 (ix3 q 0 j) + v23 (ix3 q 0 j))) * v1 (ix3 q 0 j)
        + Ideal.logistic (v40 (ix3 q 0 j) + v23 (ix3 q 0 j))
          * Ideal.tanh ((v18 (ix3 q 0 j) + ∑ k : Fin 64, (v39 (ix3 q 0 k) * v1 (ix3 q 0 k)) * v21 (ix3 q k j))
              + v24 (ix3 q 0 j)) := by
  have hB : hiddenProj (mulf v39 v1) v21 (ix3 q 0 j)
      = ∑ k : Fin 64, (v39 (ix3 q 0 k) * v1 (ix3 q 0 k)) * v21 (ix3 q k j) := hiddenProj_apply _ _ q 0 j
  rw [← hB]
  rfl

/-! ## The block -/

theorem hz : (![0, 0, 0] : Fin 3 → Nat) = fun _ => 0 := funext fun a => by fin_cases a <;> rfl

/-- What the body leaves in the output block is, node by node, the gated recurrent step of the input blocks' rows. -/
theorem stored_eq (x0 x1 : Vec Ideal S69x1x64 .f32) (x2 x3 : Vec Ideal S69x64x192 .f32) (x4 : Vec Ideal S69x1x192 .f32) :
    out0_5 (F := Ideal) x0 x1 x2 x3 x4 = rowsArr (N := 69) x0 x1 x2 x3 x4 := by
  unfold out0_5
  rw [View.canon_unit_zero hz]
  simp only [View.ld_unit_zero (S := S69x1x64) hz, View.ld_unit_zero (S := S69x64x192) hz,
    View.ld_unit_zero (S := S69x1x192) hz]
  funext i
  obtain ⟨q, u, j, rfl⟩ : ∃ (q : Fin 69) (u : Fin 1) (j : Fin 64), i = ix3 q u j := ⟨i 0, i 1, i 2, eq_ix3 i⟩
  obtain rfl : u = 0 := Subsingleton.elim u 0
  rw [rowsArr_apply, blend_apply, hidden_eq, updatePre_apply, updateBias_apply, candInput_apply, candBias_apply]
  unfold rows cell pre
  simp only [reset_apply, candWeights_apply]

end Cert.KernelIdeal.BlockValue

end
-- ==== Proof.LibNodeAxes.lean ====
/-
  Reshapes that merge two leading axes [A, B, …] into one axis of A·B "nodes", and the reshape back, read at
  coordinates — for any extents and any element type.

  A reshape keeps every element's row-major position. Node (b, n) of the two leading axes sits at position
  b·B + n of the merged axis, so with p = b·B + n:
  * `merge3_apply`: [A, B, C] viewed as [N, 1, C], at (p, ·, k), is the array at (b, n, k);
  * `merge4_apply`: [A, B, C, D] viewed as [N, C, D], at (p, c, d), is the array at (b, n, c, d);
  * `split4_apply`: [N, C, D] viewed as [A, B, C, D], at (b, n, c, d), is the array at (p, c, d).
-/
import Idealize.ShloMosaic.Lib.Pipeline.Value
import Idealize.ShloMosaic.Lib.ValueIdx

noncomputable section

namespace Cert.Lib.NodeAxes

open Idealize.ShloMosaic Idealize.ShloMosaic.ValueIdx

variable {α : Type} {A B C D N : Nat}

/-- [A, B, C] viewed as [N, 1, C]: node (b, n) is row b·B + n. -/
theorem merge3_apply (X : (⟨3, ![A, B, C]⟩ : Shape).Idx → α) (h : (⟨3, ![A, B, C]⟩ : Shape).ShapeCasts ⟨3, ![N, 1, C]⟩)
    (b : Fin A) (n : Fin B) (k : Fin C) (p : Fin N) (u : Fin 1) (hp : p.val = b.val * B + n.val) :
    shapeCast ⟨3, ![N, 1, C]⟩ X h (ix3 p u k) = X (ix3 b n k) :=
  shapeCast_apply X h (ix3 p u k) (ix3 b n k) (by
    rw [Shape.rowMajor_val_three, Shape.rowMajor_val_three]
    show (b.val * B + n.val) * C + k.val = (p.val * 1 + u.val) * C + k.val
    have hu : u.val = 0 := by have := u.isLt; omega
    rw [hp, hu, Nat.mul_one, Nat.add_zero])

/-- [A, B, C, D] viewed as [N, C, D]: node (b, n) is row b·B + n, the trailing axes unchanged. -/
theorem merge4_apply (X : (⟨4, ![A, B, C, D]⟩ : Shape).Idx → α)
    (h : (⟨4, ![A, B, C, D]⟩ : Shape).ShapeCasts ⟨3, ![N, C, D]⟩)
    (b : Fin A) (n : Fin B) (c : Fin C) (d : Fin D) (p : Fin N) (hp : p.val = b.val * B + n.val) :
    shapeCast ⟨3, ![N, C, D]⟩ X h (ix3 p c d) = X (ix4 b n c d) :=
  shapeCast_apply X h (ix3 p c d) (ix4 b n c d) (by
    rw [Shape.rowMajor_val_four, Shape.rowMajor_val_three]
    show ((b.val * B + n.val) * C + c.val) * D + d.val = (p.val * C + c.val) * D + d.val
    rw [hp])

/-- [N, C, D] viewed as [A, B, C, D]: row b·B + n is node (b, n). -/
theorem split4_apply (Y : (⟨3, ![N, C, D]⟩ : Shape).Idx → α)
    (h : (⟨3, ![N, C, D]⟩ : Shape).ShapeCasts ⟨4, ![A, B, C, D]⟩)
    (b : Fin A) (n : Fin B) (c : Fin C) (d : Fin D) (p : Fin N) (hp : p.val = b.val * B + n.val) :
    shapeCast ⟨4, ![A, B, C, D]⟩ Y h (ix4 b n c d) = Y (ix3 p c d) :=
  shapeCast_apply Y h (ix4 b n c d) (ix3 p c d) (by
    rw [Shape.rowMajor_val_three, Shape.rowMajor_val_four]
    show (p.val * C + c.val) * D + d.val = ((b.val * B + n.val) * C + c.val) * D + d.val
    rw [hp])

end Cert.Lib.NodeAxes

end
-- ==== Proof.KernelValue.lean ====
/-
  The kernel's result, read at an index: node (b, n)'s new hidden entry j is the gated recurrent step (GruCell) of
  node (b, n)'s rows of the five arguments.

  Before the region the five arguments are reshaped so that the two leading axes [16, 207] merge into one axis of
  3312 nodes, node (b, n) at row 207·b + n. The region runs over 48 grid points; point t works on the 69 nodes
  69·t … 69·t + 68: every window's block is those rows of its array, whole along the other axes. What a point writes
  back is, node by node, the step of its input blocks' rows (BlockValue), hence rows 69·t … 69·t + 68 of the array of
  all 3312 nodes' steps. The 48 blocks tile the 3312 rows, so the region's output is that array. After the region it
  is reshaped back to [16, 207, 1, 64], where node (b, n) reads row 207·b + n.
-/
import proofs.«167887_j79929341379004_2_alg».proof.Proof.Gen.KernelIdeal.Frame
import proofs.«167887_j79929341379004_2_alg».proof.Proof.BlockValue
import proofs.«167887_j79929341379004_2_alg».proof.Proof.LibNodeAxes
import Idealize.ShloMosaic.Lib.Pipeline.Value
import Idealize.ShloMosaic.Lib.StableHlo.Run
import Idealize.ShloMosaic.Lib.Tactic

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Gru Cert.Lib.NodeAxes

variable (m : (ℓ : Loc nD τ sig) → Buf (Elt Ideal) ℓ) (ρ : Dev nD → PrngReg)

/-! ## The five arrays the region finds: the arguments with their leading axes merged -/

theorem V_x (c : Dev nD) : (V m c main_v0 : S3312x1x64.Idx → Elt Ideal .f32)
    = shapeCast S3312x1x64 (m ((c : Thread nD τ).loc main_arg0)) shapeCasts_S16x207x64_S3312x1x64 := by
  show StableHlo.after hostOps0 (fun b => m (c, b)) (Proc.devRef .tc main_v0) = _
  after_results
  rfl
theorem V_h (c : Dev nD) : (V m c main_v1 : S3312x1x64.Idx → Elt Ideal .f32)
    = shapeCast S3312x1x64 (m ((c : Thread nD τ).loc main_arg1)) shapeCasts_S16x207x1x64_S3312x1x64 := by
  show StableHlo.after hostOps0 (fun b => m (c, b)) (Proc.devRef .tc main_v1) = _
  after_results
  rfl
theorem V_wx (c : Dev nD) : (V m c main_v2 : S3312x64x192.Idx → Elt Ideal .f32)
    = shapeCast S3312x64x192 (m ((c : Thread nD τ).loc main_arg2)) shapeCasts_S16x207x64x192_S3312x64x192 := by
  show StableHlo.after hostOps0 (fun b => m (c, b)) (Proc.devRef .tc main_v2) = _
  after_results
  rfl
theorem V_wh (c : Dev nD) : (V m c main_v3 : S3312x64x192.Idx → Elt Ideal .f32)
    = shapeCast S3312x64x192 (m ((c : Thread nD τ).loc main_arg3)) shapeCasts_S16x207x64x192_S3312x64x192 := by
  show StableHlo.after hostOps0 (fun b => m (c, b)) (Proc.devRef .tc main_v3) = _
  after_results
  rfl
theorem V_b (c : Dev nD) : (V m c main_v4 : S3312x1x192.Idx → Elt Ideal .f32)
    = shapeCast S3312x1x192 (m ((c : Thread nD τ).loc main_arg4)) shapeCasts_S16x207x1x192_S3312x1x192 := by
  show StableHlo.after hostOps0 (fun b => m (c, b)) (Proc.devRef .tc main_v4) = _
  after_results
  rfl

/-! ## The blocks -/

/-- Every window's block index at a point is (the point's row block, 0, 0), the same row block for all six windows;
    there are 48 row blocks. Decided over the 48 points. -/
theorem idx_facts : ∀ t : Fin cfg0.N,
    win0_0.index t (0 : Fin 3) = win0_5.index t (0 : Fin 3) ∧ win0_0.index t (1 : Fin 3) = 0 ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (1 : Fin 3) = 0 ∧ win0_5.index t (2 : Fin 3) = 0 ∧ win0_5.index t (0 : Fin 3) ≤ 47 :=
  (by decide +kernel : ∀ t : Fin grid0.N, _)

/-- Every row block is some point's. -/
theorem idx_onto : ∀ q0 : Fin 48, ∃ t : Fin cfg0.N, win0_5.index t (0 : Fin 3) = q0.val :=
  (by decide +kernel : ∀ q0 : Fin 48, ∃ t : Fin grid0.N, win0_5.index t (0 : Fin 3) = q0.val)

/-- Row q of a point's block of the input rows is row 69·(row block) + q of the array. -/
theorem iblk_x (c : Dev nD) (t : Fin cfg0.N) (q : Fin 69) (k : Fin 64) (p : Fin 3312)
    (hp : p.val = win0_5.index t (0 : Fin 3) * 69 + q.val) :
    (iblk m c 0 t : Vec Ideal S69x1x64 .f32) (ix3 q 0 k) = (V m c main_v0 : S3312x1x64.Idx → Elt Ideal .f32) (ix3 p 0 k) := by
  obtain ⟨e0, e1, e2, -⟩ := idx_facts t
  unfold iblk
  rw [View.read_apply]
  show (V m c main_v0 : S3312x1x64.Idx → Elt Ideal .f32) _ = _
  refine congrArg (V m c main_v0 : S3312x1x64.Idx → Elt Ideal .f32) (funext fun a => Fin.ext ?_)
  match a with
  | ⟨0, _⟩ => show win0_0.index t (0 : Fin 3) * 69 + 1 * q.val = p.val; rw [hp, e0]; omega
  | ⟨1, _⟩ => show win0_0.index t (1 : Fin 3) * 1 + 1 * 0 = 0; rw [e1]
  | ⟨2, _⟩ => show win0_0.index t (2 : Fin 3) * 64 + 1 * k.val = k.val; rw [e2]; omega

theorem iblk_h (c : Dev nD) (t : Fin cfg0.N) (q : Fin 69) (k : Fin 64) (p : Fin 3312)
    (hp : p.val = win0_5.index t (0 : Fin 3) * 69 + q.val) :
    (iblk m c 1 t : Vec Ideal S69x1x64 .f32) (ix3 q 0 k) = (V m c main_v1 : S3312x1x64.Idx → Elt Ideal .f32) (ix3 p 0 k) := by
  obtain ⟨-, -, -, e0, e1, e2, -⟩ := idx_facts t
  unfold iblk
  rw [View.read_apply]
  show (V m c main_v1 : S3312x1x64.Idx → Elt Ideal .f32) _ = _
  refine congrArg (V m c main_v1 : S3312x1x64.Idx → Elt Ideal .f32) (funext fun a => Fin.ext ?_)
  match a with
  | ⟨0, _⟩ => show win0_1.index t (0 : Fin 3) * 69 + 1 * q.val = p.val; rw [hp, e0]; omega
  | ⟨1, _⟩ => show win0_1.index t (1 : Fin 3) * 1 + 1 * 0 = 0; rw [e1]
  | ⟨2, _⟩ => show win0_1.index t (2 : Fin 3) * 64 + 1 * k.val = k.val; rw [e2]; omega

theorem iblk_wx (c : Dev nD) (t : Fin cfg0.N) (q : Fin 69) (k : Fin 64) (g : Fin 192) (p : Fin 3312)
    (hp : p.val = win0_5.index t (0 : Fin 3) * 69 + q.val) :
    (iblk m c 2 t : Vec Ideal S69x64x192 .f32) (ix3 q k g) = (V m c main_v2 : S3312x64x192.Idx → Elt Ideal .f32) (ix3 p k g) := by
  obtain ⟨-, -, -, -, -, -, e0, e1, e2, -⟩ := idx_facts t
  unfold iblk
  rw [View.read_apply]
  show (V m c main_v2 : S3312x64x192.Idx → Elt Ideal .f32) _ = _
  refine congrArg (V m c main_v2 : S3312x64x192.Idx → Elt Ideal .f32) (funext fun a => Fin.ext ?_)
  match a with
  | ⟨0, _⟩ => show win0_2.index t (0 : Fin 3) * 69 + 1 * q.val = p.val; rw [hp, e0]; omega
  | ⟨1, _⟩ => show win0_2.index t (1 : Fin 3) * 64 + 1 * k.val = k.val; rw [e1]; omega
  | ⟨2, _⟩ => show win0_2.index t (2 : Fin 3) * 192 + 1 * g.val = g.val; rw [e2]; omega

theorem iblk_wh (c : Dev nD) (t : Fin cfg0.N) (q : Fin 69) (k : Fin 64) (g : Fin 192) (p : Fin 3312)
    (hp : p.val = win0_5.index t (0 : Fin 3) * 69 + q.val) :
    (iblk m c 3 t : Vec Ideal S69x64x192 .f32) (ix3 q k g) = (V m c main_v3 : S3312x64x192.Idx → Elt Ideal .f32) (ix3 p k g) := by
  obtain ⟨-, -, -, -, -, -, -, -, -, e0, e1, e2, -⟩ := idx_facts t
  unfold iblk
  rw [View.read_apply]
  show (V m c main_v3 : S3312x64x192.Idx → Elt Ideal .f32) _ = _
  refine congrArg (V m c main_v3 : S3312x64x192.Idx → Elt Ideal .f32) (funext fun a => Fin.ext ?_)
  match a with
  | ⟨0, _⟩ => show win0_3.index t (0 : Fin 3) * 69 + 1 * q.val = p.val; rw [hp, e0]; omega
  | ⟨1, _⟩ => show win0_3.index t (1 : Fin 3) * 64 + 1 * k.val = k.val; rw [e1]; omega
  | ⟨2, _⟩ => show win0_3.index t (2 : Fin 3) * 192 + 1 * g.val = g.val; rw [e2]; omega

theorem iblk_b (c : Dev nD) (t : Fin cfg0.N) (q : Fin 69) (g : Fin 192) (p : Fin 3312)
    (hp : p.val = win0_5.index t (0 : Fin 3) * 69 + q.val) :
    (iblk m c 4 t : Vec Ideal S69x1x192 .f32) (ix3 q 0 g) = (V m c main_v4 : S3312x1x192.Idx → Elt Ideal .f32) (ix3 p 0 g) := by
  obtain ⟨-, -, -, -, -, -, -, -, -, -, -, -, e0, e1, e2, -⟩ := idx_facts t
  unfold iblk
  rw [View.read_apply]
  show (V m c main_v4 : S3312x1x192.Idx → Elt Ideal .f32) _ = _
  refine congrArg (V m c main_v4 : S3312x1x192.Idx → Elt Ideal .f32) (funext fun a => Fin.ext ?_)
  match a with
  | ⟨0, _⟩ => show win0_4.index t (0 : Fin 3) * 69 + 1 * q.val = p.val; rw [hp, e0]; omega
  | ⟨1, _⟩ => show win0_4.index t (1 : Fin 3) * 1 + 1 * 0 = 0; rw [e1]
  | ⟨2, _⟩ => show win0_4.index t (2 : Fin 3) * 192 + 1 * g.val = g.val; rw [e2]; omega

/-! ## From blocks to the array -/

/-- All 3312 nodes' steps, over the arrays the region finds. -/
abbrev nodes (c : Dev nD) : S3312x1x64.Idx → Elt Ideal .f32 :=
  rowsArr (N := 3312) (V m c main_v0) (V m c main_v1) (V m c main_v2) (V m c main_v3) (V m c main_v4)

/-- What point t writes back is rows 69·t … 69·t + 68 of `nodes`. -/
theorem flushed_eq (c : Dev nD) (t : Fin cfg0.N) :
    (dats m 0 c).flushed 5 t = ((cfg0.win 5).blk t).view.read (Elt Ideal) (nodes m c) := by
  show (cfg0.win 5).cut (grid0.coords t) ((dats m 0 c).after 5 t) = _
  rw [after0_5, BlockValue.stored_eq]
  obtain ⟨-, -, -, -, -, -, -, -, -, -, -, -, -, -, -, e1, e2, -⟩ := idx_facts t
  funext y
  show rowsArr (N := 69) (iblk m c 0 t) (iblk m c 1 t) (iblk m c 2 t) (iblk m c 3 t) (iblk m c 4 t) y
    = nodes m c (((cfg0.win 5).blk t).view.emb y)
  refine rowsArr_congr _ _ _ _ _ _ _ _ _ _ y (((cfg0.win 5).blk t).view.emb y) ?_ ?_ ?_ ?_ ?_ ?_
  · show win0_5.index t (2 : Fin 3) * 64 + 1 * (y 2).val = (y 2).val
    rw [e2]; omega
  · intro k
    exact iblk_x m c t _ k _ (by show win0_5.index t (0 : Fin 3) * 69 + 1 * (y 0).val = win0_5.index t (0 : Fin 3) * 69 + (y 0).val; omega)
  · intro k
    exact iblk_h m c t _ k _ (by show win0_5.index t (0 : Fin 3) * 69 + 1 * (y 0).val = win0_5.index t (0 : Fin 3) * 69 + (y 0).val; omega)
  · intro k g
    exact iblk_wx m c t _ k g _ (by show win0_5.index t (0 : Fin 3) * 69 + 1 * (y 0).val = win0_5.index t (0 : Fin 3) * 69 + (y 0).val; omega)
  · intro k g
    exact iblk_wh m c t _ k g _ (by show win0_5.index t (0 : Fin 3) * 69 + 1 * (y 0).val = win0_5.index t (0 : Fin 3) * 69 + (y 0).val; omega)
  · intro g
    exact iblk_b m c t _ g _ (by show win0_5.index t (0 : Fin 3) * 69 + 1 * (y 0).val = win0_5.index t (0 : Fin 3) * 69 + (y 0).val; omega)

/-- An index of the output array is in point t's block iff each coordinate is in the block's range on its axis. -/
theorem mem_blk (t : Fin cfg0.N) (i : S3312x1x64.Idx) :
    i ∈ ((cfg0.win 5).blk t).view.set
      ↔ ∀ a : Fin 3, win0_5.index t a * S69x1x64.size a ≤ (i a).val
          ∧ (i a).val < win0_5.index t a * S69x1x64.size a + S69x1x64.size a := by
  show i ∈ ((View.whole main_v5).slice (win0_5.rect t)).set ↔ _
  rw [View.set_slice_whole, Rect.mem_set_unit]
  exact Iff.rfl

/-- The 48 blocks of 69 rows tile the 3312 rows, so the region's output is `nodes`. -/
theorem final (c : Dev nD) : (dats m 0 c).arrAt 5 cfg0.N = nodes m c :=
  (dats m 0 c).arrAt_eq_of_cover 5 (nodes m c) (fun t _ => flushed_eq m c t) fun i => by
    have h0 : (i 0).val < 3312 := (i 0).isLt
    have h1 : (i 1).val < 1 := (i 1).isLt
    have h2 : (i 2).val < 64 := (i 2).isLt
    obtain ⟨t, ht⟩ := idx_onto ⟨(i 0).val / 69, by omega⟩
    have ht' : win0_5.index t (0 : Fin 3) = (i 0).val / 69 := ht
    obtain ⟨-, -, -, -, -, -, -, -, -, -, -, -, -, -, -, e1, e2, -⟩ := idx_facts t
    refine ⟨t, flush0_5 t, ?_⟩
    rw [mem_blk]
    intro a
    match a with
    | ⟨0, _⟩ =>
      show win0_5.index t (0 : Fin 3) * 69 ≤ (i 0).val ∧ (i 0).val < win0_5.index t (0 : Fin 3) * 69 + 69
      rw [ht']; omega
    | ⟨1, _⟩ =>
      show win0_5.index t (1 : Fin 3) * 1 ≤ (i 1).val ∧ (i 1).val < win0_5.index t (1 : Fin 3) * 1 + 1
      rw [e1]; omega
    | ⟨2, _⟩ =>
      show win0_5.index t (2 : Fin 3) * 64 ≤ (i 2).val ∧ (i 2).val < win0_5.index t (2 : Fin 3) * 64 + 64
      rw [e2]; omega

/-! ## Back to node coordinates -/

/-- Row 207·b + n of `nodes` is node (b, n)'s step over the arguments. -/
theorem nodes_apply (c : Dev nD) (b : Fin 16) (n : Fin 207) (j : Fin 64) (p : Fin 3312) (hp : p.val = b.val * 207 + n.val) :
    nodes m c (ix3 p 0 j)
      = grid (m ((c : Thread nD τ).loc main_arg0)) (m ((c : Thread nD τ).loc main_arg1))
          (m ((c : Thread nD τ).loc main_arg2)) (m ((c : Thread nD τ).loc main_arg3))
          (m ((c : Thread nD τ).loc main_arg4)) b n j := by
  show rows (N := 3312) (V m c main_v0) (V m c main_v1) (V m c main_v2) (V m c main_v3) (V m c main_v4) p j = _
  unfold rows grid
  refine cell_congr (fun k => ?_) (fun k => ?_) (fun k g => ?_) (fun k g => ?_) (fun g => ?_) j
  · rw [V_x]; exact merge3_apply _ _ b n k p 0 hp
  · rw [V_h]; exact merge4_apply _ _ b n 0 k p hp
  · rw [V_wx]; exact merge4_apply _ _ b n k g p hp
  · rw [V_wh]; exact merge4_apply _ _ b n k g p hp
  · rw [V_b]; exact merge4_apply _ _ b n 0 g p hp

/-- The program's result: the region's output reshaped back to [16, 207, 1, 64] is every node's step. -/
theorem result_eq (c : Dev nD) :
    Pipeline.afterTail₀ cfgs (dats m) 0 (V0 m) [hostOps1] c main_v6
      = gridArr (m ((c : Thread nD τ).loc main_arg0)) (m ((c : Thread nD τ).loc main_arg1))
          (m ((c : Thread nD τ).loc main_arg2)) (m ((c : Thread nD τ).loc main_arg3))
          (m ((c : Thread nD τ).loc main_arg4)) := by
  unfold Pipeline.afterTail₀
  show StableHlo.after hostOps1 _ (Proc.devRef .tc main_v6) = _
  after_results
  rw [(Pipeline.withArrays_arr spec0 launch0.win.arr_inj c _ _ 5).trans (final m c)]
  funext i
  obtain ⟨b, n, u, j, rfl⟩ : ∃ (b : Fin 16) (n : Fin 207) (u : Fin 1) (j : Fin 64), i = ix4 b n u j :=
    ⟨i 0, i 1, i 2, i 3, eq_ix4 i⟩
  obtain rfl : u = 0 := Subsingleton.elim u 0
  rw [gridArr_apply]
  refine (split4_apply (nodes m c) shapeCasts_S3312x1x64_S16x207x1x64 b n 0 j
    ⟨b.val * 207 + n.val, by have := b.isLt; have := n.isLt; omega⟩ rfl).trans ?_
  exact nodes_apply m c b n j _ rfl

/-! ## The run -/

/-- Every weakly fair execution terminates with the result at every node's step and the arguments unchanged. -/
theorem run : θ_run defs (onTc (τ := τ) (main (F := Ideal))) ⟨m, fun _ => 0, ρ⟩ fun r => ∀ c : Dev nD,
      r.2.mem ((c.tc : Thread nD τ).loc main_v6)
        = gridArr (m ((c : Thread nD τ).loc main_arg0)) (m ((c : Thread nD τ).loc main_arg1))
            (m ((c : Thread nD τ).loc main_arg2)) (m ((c : Thread nD τ).loc main_arg3))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.RefValue.lean ====
/-
  The reference's result, read at an index: node (b, n)'s new hidden entry j is the gated recurrent step (GruCell) of
  node (b, n)'s rows of the five arguments.

  The reference multiplies each node's rows into its matrices with batched matrix products — each entry a sum over
  the 64 contraction indices —, takes the three column groups by slicing at offsets 0, 64 and 128, and spells the
  logistic function out as 1 / (1 + e^(−t)) with the float literal 1.0, which is the number one. Stage by stage
  (the generated read-at-an-index lemmas), that is the same function of the node's rows.
-/
import proofs.«167887_j79929341379004_2_alg».proof.Proof.Gen.ReferenceIdeal.Read
import proofs.«167887_j79929341379004_2_alg».proof.Proof.GruCell

noncomputable section

namespace Cert.ReferenceIdeal.RefValue

open Cert.ReferenceIdeal Cert.ReferenceIdeal.Read Idealize.ShloMosaic Idealize.ShloMosaic.ValueIdx Cert.Gru

/-- The reference's spelling of the logistic function, over the literal 1.0, is the logistic function. -/
theorem logistic_spelt (t : EReal) :
    FloatOps.hostDivf (F := Ideal) (φ := .f32) (FloatOps.ofBits .f32 0x3F800000#32)
        (FloatOps.addf (FloatOps.ofBits .f32 0x3F800000#32) (FloatOps.hostUnary .exp (FloatOps.hostNegf t)))
      = Ideal.logistic t := by
  show Ideal.div one (one + Ideal.exp (-t)) = Ideal.div 1 (1 + Ideal.exp (-t))
  rw [one_eq]

variable (x0 : (⟨S16x207x64, .f32⟩ : BufTy).Contents (Elt Ideal)) (x1 : (⟨S16x207x1x64, .f32⟩ : BufTy).Contents (Elt Ideal))
  (x2 x3 : (⟨S16x207x64x192, .f32⟩ : BufTy).Contents (Elt Ideal)) (x4 : (⟨S16x207x1x192, .f32⟩ : BufTy).Contents (Elt Ideal))

/-! ## Where each stage reads its operands, in node coordinates -/

theorem lhs1 (b : Fin 16) (n : Fin 207) (g : Fin 192) (k : Fin 64) :
    idx_main_v0 (lidx_main_v1 (ix4 b n 0 g) k) = ix3 b n k :=
  funext fun a => Fin.ext (by match a with | ⟨0, _⟩ => rfl | ⟨1, _⟩ => rfl | ⟨2, _⟩ => rfl)
theorem rhs1 (b : Fin 16) (n : Fin 207) (g : Fin 192) (k : Fin 64) : ridx_main_v1 (ix4 b n 0 g) k = ix4 b n k g :=
  funext fun a => Fin.ext (by match a with | ⟨0, _⟩ => rfl | ⟨1, _⟩ => rfl | ⟨2, _⟩ => rfl | ⟨3, _⟩ => rfl)

theorem grpR1 (b : Fin 16) (n : Fin 207) (j : Fin 64) : idx_main_v2 (ix4 b n 0 j) = ix4 b n 0 (colR j) :=
  funext fun a => Fin.ext (by match a with | ⟨0, _⟩ => rfl | ⟨1, _⟩ => rfl | ⟨2, _⟩ => rfl | ⟨3, _⟩ => rfl)
theorem grpZ1 (b : Fin 16) (n : Fin 207) (j : Fin 64) : idx_main_v3 (ix4 b n 0 j) = ix4 b n 0 (colZ j) :=
  funext fun a => Fin.ext (by match a with | ⟨0, _⟩ => rfl | ⟨1, _⟩ => rfl | ⟨2, _⟩ => rfl | ⟨3, _⟩ => rfl)
theorem grpC1 (b : Fin 16) (n : Fin 207) (j : Fin 64) : idx_main_v4 (ix4 b n 0 j) = ix4 b n 0 (colC j) :=
  funext fun a => Fin.ext (by match a with | ⟨0, _⟩ => rfl | ⟨1, _⟩ => rfl | ⟨2, _⟩ => rfl | ⟨3, _⟩ => rfl)

theorem grpR3 (b : Fin 16) (n : Fin 207) (k j : Fin 64) : idx_main_v5 (ix4 b n k j) = ix4 b n k (colR j) :=
  funext fun a => Fin.ext (by match a with | ⟨0, _⟩ => rfl | ⟨1, _⟩ => rfl | ⟨2, _⟩ => rfl | ⟨3, _⟩ => rfl)
theorem grpZ3 (b : Fin 16) (n : Fin 207) (k j : Fin 64) : idx_main_v6 (ix4 b n k j) = ix4 b n k (colZ j) :=
  funext fun a => Fin.ext (by match a with | ⟨0, _⟩ => rfl | ⟨1, _⟩ => rfl | ⟨2, _⟩ => rfl | ⟨3, _⟩ => rfl)
theorem grpC3 (b : Fin 16) (n : Fin 207) (k j : Fin 64) : idx_main_v7 (ix4 b n k j) = ix4 b n k (colC j) :=
  funext fun a => Fin.ext (by match a with | ⟨0, _⟩ => rfl | ⟨1, _⟩ => rfl | ⟨2, _⟩ => rfl | ⟨3, _⟩ => rfl)

theorem grpR4 (b : Fin 16) (n : Fin 207) (j : Fin 64) : idx_main_v8 (ix4 b n 0 j) = ix4 b n 0 (colR j) :=
  funext fun a => Fin.ext (by match a with | ⟨0, _⟩ => rfl | ⟨1, _⟩ => rfl | ⟨2, _⟩ => rfl | ⟨3, _⟩ => rfl)
theorem grpZ4 (b : Fin 16) (n : Fin 207) (j : Fin 64) : idx_main_v9 (ix4 b n 0 j) = ix4 b n 0 (colZ j) :=
  funext fun a => Fin.ext (by match a with | ⟨0, _⟩ => rfl | ⟨1, _⟩ => rfl | ⟨2, _⟩ => rfl | ⟨3, _⟩ => rfl)
theorem grpC4 (b : Fin 16) (n : Fin 207) (j : Fin 64) : idx_main_v10 (ix4 b n 0 j) = ix4 b n 0 (colC j) :=
  funext fun a => Fin.ext (by match a with | ⟨0, _⟩ => rfl | ⟨1, _⟩ => rfl | ⟨2, _⟩ => rfl | ⟨3, _⟩ => rfl)

theorem lhs11 (b : Fin 16) (n : Fin 207) (j k : Fin 64) : lidx_main_v11 (ix4 b n 0 j) k = ix4 b n 0 k :=
  funext fun a => Fin.ext (by match a with | ⟨0, _⟩ => rfl | ⟨1, _⟩ => rfl | ⟨2, _⟩ => rfl | ⟨3, _⟩ => rfl)
theorem rhs11 (b : Fin 16) (n : Fin 207) (j k : Fin 64) : ridx_main_v11 (ix4 b n 0 j) k = ix4 b n k j :=
  funext fun a => Fin.ext (by match a with | ⟨0, _⟩ => rfl | ⟨1, _⟩ => rfl | ⟨2, _⟩ => rfl | ⟨3, _⟩ => rfl)
theorem lhs20 (b : Fin 16) (n : Fin 207) (j k : Fin 64) : lidx_main_v20 (ix4 b n 0 j) k = ix4 b n 0 k :=
  funext fun a => Fin.ext (by match a with | ⟨0, _⟩ => rfl | ⟨1, _⟩ => rfl | ⟨2, _⟩ => rfl | ⟨3, _⟩ => rfl)
theorem rhs20 (b : Fin 16) (n : Fin 207) (j k : Fin 64) : ridx_main_v20 (ix4 b n 0 j) k = ix4 b n k j :=
  funext fun a => Fin.ext (by match a with | ⟨0, _⟩ => rfl | ⟨1, _⟩ => rfl | ⟨2, _⟩ => rfl | ⟨3, _⟩ => rfl)
theorem lhs30 (b : Fin 16) (n : Fin 207) (j k : Fin 64) : lidx_main_v30 (ix4 b n 0 j) k = ix4 b n 0 k :=
  funext fun a => Fin.ext (by match a with | ⟨0, _⟩ => rfl | ⟨1, _⟩ => rfl | ⟨2, _⟩ => rfl | ⟨3, _⟩ => rfl)
theorem rhs30 (b : Fin 16) (n : Fin 207) (j k : Fin 64) : ridx_main_v30 (ix4 b n 0 j) k = ix4 b n k j :=
  funext fun a => Fin.ext (by match a with | ⟨0, _⟩ => rfl | ⟨1, _⟩ => rfl | ⟨2, _⟩ => rfl | ⟨3, _⟩ => rfl)

/-! ## The stages -/

/-- The node's rows and matrices, as the step takes them. -/
abbrev X (b : Fin 16) (n : Fin 207) : Fin 64 → EReal := fun k => x0 (ix3 b n k)
abbrev H (b : Fin 16) (n : Fin 207) : Fin 64 → EReal := fun k => x1 (ix4 b n 0 k)
abbrev WX (b : Fin 16) (n : Fin 207) : Fin 64 → Fin 192 → EReal := fun k g => x2 (ix4 b n k g)
abbrev WH (b : Fin 16) (n : Fin 207) : Fin 64 → Fin 192 → EReal := fun k g => x3 (ix4 b n k g)
abbrev Bi (b : Fin 16) (n : Fin 207) : Fin 192 → EReal := fun g => x4 (ix4 b n 0 g)

/-- The input row times the first matrix. -/
theorem inputProj_apply (b : Fin 16) (n : Fin 207) (g : Fin 192) :
    val_main_v1 (F := Ideal) x0 x2 (ix4 b n 0 g) = ∑ k : Fin 64, x0 (ix3 b n k) * x2 (ix4 b n k g) := by
  rw [val_main_v1_apply]
  refine Finset.sum_congr rfl fun k _ => ?_
  rw [val_main_v0_apply, lhs1, rhs1]

/-- The reset gate. -/
theorem reset_apply (b : Fin 16) (n : Fin 207) (j : Fin 64) :
    val_main_v19 (F := Ideal) x0 x1 x2 x3 x4 (ix4 b n 0 j)
      = Ideal.logistic (pre (X x0 b n) (WX x2 b n) (WH x3 b n) (Bi x4 b n) (H x1 b n) (colR j)) := by
  rw [val_main_v19_apply, val_main_v18_apply, val_main_cst_0_apply, val_main_v17_apply, val_main_v16_apply,
    val_main_cst_apply, val_main_v15_apply, val_main_v14_apply, logistic_spelt, val_main_v13_apply, val_main_v12_apply,
    val_main_v2_apply, grpR1, inputProj_apply, val_main_v11_apply, val_main_v8_apply, grpR4]
  refine congrArg Ideal.logistic (congrArg (· + _) (congrArg (_ + ·) (Finset.sum_congr rfl fun k _ => ?_)))
  rw [lhs11, rhs11, val_main_v5_apply, grpR3]

/-- The update gate. -/
theorem update_apply (b : Fin 16) (n : Fin 207) (j : Fin 64) :
    val_main_v28 (F := Ideal) x0 x1 x2 x3 x4 (ix4 b n 0 j)
      = Ideal.logistic (pre (X x0 b n) (WX x2 b n) (WH x3 b n) (Bi x4 b n) (H x1 b n) (colZ j)) := by
  rw [val_main_v28_apply, val_main_v27_apply, val_main_cst_2_apply, val_main_v26_apply, val_main_v25_apply,
    val_main_cst_1_apply, val_main_v24_apply, val_main_v23_apply, logistic_spelt, val_main_v22_apply, val_main_v21_apply,
    val_main_v3_apply, grpZ1, inputProj_apply, val_main_v20_apply, val_main_v9_apply, grpZ4]
  refine congrArg Ideal.logistic (congrArg (· + _) (congrArg (_ + ·) (Finset.sum_congr rfl fun k _ => ?_)))
  rw [lhs20, rhs20, val_main_v6_apply, grpZ3]

/-- The candidate, over the reset-gated hidden row. -/
theorem cand_apply (b : Fin 16) (n : Fin 207) (j : Fin 64) :
    val_main_v33 (F := Ideal) x0 x1 x2 x3 x4 (ix4 b n 0 j)
      = Ideal.tanh (pre (X x0 b n) (WX x2 b n) (WH x3 b n) (Bi x4 b n)
          (fun k => Ideal.logistic (pre (X x0 b n) (WX x2 b n) (WH x3 b n) (Bi x4 b n) (H x1 b n) (colR k)) * x1 (ix4 b n 0 k))
          (colC j)) := by
  rw [val_main_v33_apply, val_main_v32_apply, val_main_v31_apply, val_main_v4_apply, grpC1, inputProj_apply,
    val_main_v30_apply, val_main_v10_apply, grpC4]
  refine congrArg Ideal.tanh (congrArg (· + _) (congrArg (_ + ·) (Finset.sum_congr rfl fun k _ => ?_)))
  rw [lhs30, rhs30, val_main_v29_apply, reset_apply, val_main_v7_apply, grpC3]
  rfl

/-- The reference's result is the array of every node's step. -/
theorem result_eq : val_main_v38 (F := Ideal) x0 x1 x2 x3 x4 = gridArr x0 x1 x2 x3 x4 := by
  funext i
  obtain ⟨b, n, u, j, rfl⟩ : ∃ (b : Fin 16) (n : Fin 207) (u : Fin 1) (j : Fin 64), i = ix4 b n u j :=
    ⟨i 0, i 1, i 2, i 3, eq_ix4 i⟩
  obtain rfl : u = 0 := Subsingleton.elim u 0
  rw [gridArr_apply, val_main_v38_apply, val_main_v36_apply, val_main_v35_apply, val_main_v34_apply,
    val_main_cst_3_apply, val_main_v37_apply, update_apply, cand_apply]
  rfl

end Cert.ReferenceIdeal.RefValue

end
-- ==== Proof.lean ====
/-
  A gated recurrent step on 16 × 207 nodes, each node with its own weights: the kernel against the reference, over the
  extended reals.

  Both programs compute, for every node (b, n) and hidden entry j,

      out[b, n, 0, j] = (1 − z_j) · h_j + z_j · tanh((x·Wx)[128 + j] + ((r ⊙ h)·Wh)[128 + j] + bias[128 + j]),
      r_k = σ((x·Wx)[k] + (h·Wh)[k] + bias[k]),   z_j = σ((x·Wx)[64 + j] + (h·Wh)[64 + j] + bias[64 + j]),

  where x, h, Wx, Wh, bias are node (b, n)'s rows and matrices and every product u·W is Σ_k u_k · W[k, ·]
  (Proof/GruCell.lean states this once). The kernel merges the two node axes into 3312 rows, works on 69 rows per grid
  point, forms each u·W by broadcasting, multiplying and summing over the contraction axis, and uses one logistic
  operation (Proof/BlockValue.lean, Proof/KernelValue.lean); the reference uses batched matrix products and spells the
  logistic function as 1 / (1 + e^(−t)) (Proof/RefValue.lean). At the ideal values these are the same sums of the same
  products in the same order of factors, and the logistic function is that quotient by definition, so the two results
  are one function of the arguments. No finiteness of the inputs is used.

  The three frames: the kernel's two are the generated frame runs; the reference has no kernel, and its frame is its
  run with the result forgotten. The idealization rewrote nothing, so there is nothing to preserve.
-/
import proofs.«167887_j79929341379004_2_alg».proof.Defs
import proofs.«167887_j79929341379004_2_alg».proof.Proof.Gen.Kernel
import proofs.«167887_j79929341379004_2_alg».proof.Proof.Gen.Kernel.Skeleton
import proofs.«167887_j79929341379004_2_alg».proof.Proof.Gen.Kernel.Launch
import proofs.«167887_j79929341379004_2_alg».proof.Proof.Gen.Kernel.Points
import proofs.«167887_j79929341379004_2_alg».proof.Proof.Gen.Kernel.Frame
import proofs.«167887_j79929341379004_2_alg».proof.Proof.Gen.KernelIdeal
import proofs.«167887_j79929341379004_2_alg».proof.Proof.Gen.KernelIdeal.Skeleton
import proofs.«167887_j79929341379004_2_alg».proof.Proof.Gen.KernelIdeal.Launch
import proofs.«167887_j79929341379004_2_alg».proof.Proof.Gen.KernelIdeal.Points
import proofs.«167887_j79929341379004_2_alg».proof.Proof.Gen.KernelIdeal.Frame
import proofs.«167887_j79929341379004_2_alg».proof.Proof.Gen.ReferenceIdeal
import proofs.«167887_j79929341379004_2_alg».proof.Proof.Gen.ReferenceIdeal.Run
import proofs.«167887_j79929341379004_2_alg».proof.Proof.Gen.ReferenceIdeal.Read
import proofs.«167887_j79929341379004_2_alg».proof.Proof.Gen.Pre_finite_inputs
import proofs.«167887_j79929341379004_2_alg».proof.Proof.KernelValue
import proofs.«167887_j79929341379004_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the array of every node's step over the (agreeing) arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v38_eq _ _ _ _ _)).trans ?_
  rw [Cert.ReferenceIdeal.RefValue.result_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
